-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x4096 : Shape := ⟨2, ![2048, 4096]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S2048x4096 .f32) (main_arg4 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_v13 main_v16
-- ==== Kernel.lean ====
abbrev S8192x1024 : Shape := ⟨2, ![8192, 1024]⟩
abbrev S2048x4096 : Shape := ⟨2, ![2048, 4096]⟩
abbrev S4096 : Shape := ⟨1, ![4096]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x4096, .f32⟩
  | .hbm, ⟨4, _⟩ => ⟨S4096, .f32⟩
  | .hbm, ⟨5, _⟩ => ⟨S1024x4096, .f32⟩
  | .hbm, ⟨6, _⟩ => ⟨S1024x4096, .bf16⟩
  | .hbm, ⟨7, _⟩ => ⟨S1024x4096, .f32⟩
  | .hbm, ⟨8, _⟩ => ⟨S1024x4096, .bf16⟩
  | .hbm, ⟨9, _⟩ => ⟨S1x4096, .f32⟩
  | .hbm, ⟨10, _⟩ => ⟨S8192x1024, .f32⟩
  | .hbm, ⟨11, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2048x4096_S1024x4096_0_0 : S2048x4096.Slices ![0, 0] S1024x4096
  bitsLt_bf16_f32 : FTy.bits .bf16 < FTy.bits .f32
  slices_S2048x4096_S1024x4096_1024_0 : S2048x4096.Slices ![1024, 0] S1024x4096
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x4096 : Shape := ⟨2, ![2048, 4096]⟩
abbrev S4096 : Shape := ⟨1, ![4096]⟩
abbrev S8192x2048 : Shape := ⟨2, ![8192, 2048]⟩
abbrev S8192x4096 : Shape := ⟨2, ![8192, 4096]⟩
abbrev S1x4096 : Shape := ⟨2, ![1, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x4096, .f32⟩
  | .hbm, ⟨4, _⟩ => ⟨S4096, .f32⟩
  | .hbm, ⟨5, _⟩ => ⟨S8192x2048, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.Spec.lean ====
/-
  The subtractive-gate LSTM cell as ONE function of its five argument arrays, element by element, on the extended reals.

  For a batch row `r` and a gate column `n` the gate activation is

      gate r n = σ( Σ_{k<1024} H[r,k]·W[k,n]  +  Σ_{k<1024} X[r,k]·W[1024+k,n]  +  B[n] ),     σ t = 1 / (1 + e^(−t)),

  `H` the previous hidden state, `X` the input, `W` the weight matrix whose first 1024 rows act on the hidden
  state and whose last 1024 rows act on the input, `B` the bias. The 4096 gate columns are four bands of 1024: input
  gate `i`, forget gate `f`, candidate `z`, output gate `o`. With `C` the previous cell state,

      cell[r,j]   = f[r,j]·C[r,j] + z[r,j] − i[r,j],
      hidden[r,j] = σ(cell[r,j]) − o[r,j].

  The one algebraic law of the certificate is here too: a sum over the 2048 rows of `W` is the sum over its first 1024
  rows plus the sum over its last 1024 rows. It is a regrouping of a finite sum in a commutative monoid, so it holds on
  the extended reals with no finiteness assumption.
-/
import Idealize.ShloMosaic.PureOps.Ideal
import Idealize.ShloMosaic.Lib.ValueIdx

noncomputable section

open scoped BigOperators

namespace Cert.SubLstm

open Idealize.ShloMosaic Idealize.ShloMosaic.ValueIdx

/-- Batch rows × hidden units: the shape of the hidden state, the input, the cell state and both results. -/
abbrev Act : Shape := ⟨2, ![8192, 1024]⟩
/-- The weight matrix: 1024 recurrent rows then 1024 input rows, by 4096 gate columns. -/
abbrev Wts : Shape := ⟨2, ![2048, 4096]⟩
/-- The bias: one entry per gate column. -/
abbrev Bia : Shape := ⟨1, ![4096]⟩

/-- Row `k` of the recurrent half of the weight matrix. -/
def recRow (k : Fin 1024) : Fin 2048 := ⟨k.val, by have := k.isLt; omega⟩
/-- Row `k` of the input half of the weight matrix. -/
def inpRow (k : Fin 1024) : Fin 2048 := ⟨1024 + k.val, by have := k.isLt; omega⟩

/-- Column `j` of the input-gate band. -/
def colI (j : Fin 1024) : Fin 4096 := ⟨j.val, by have := j.isLt; omega⟩
/-- Column `j` of the forget-gate band. -/
def colF (j : Fin 1024) : Fin 4096 := ⟨1024 + j.val, by have := j.isLt; omega⟩
/-- Column `j` of the candidate band. -/
def colZ (j : Fin 1024) : Fin 4096 := ⟨2048 + j.val, by have := j.isLt; omega⟩
/-- Column `j` of the output-gate band. -/
def colO (j : Fin 1024) : Fin 4096 := ⟨3072 + j.val, by have := j.isLt; omega⟩

/-- The gate activation of batch row `r` at gate column `n`. -/
def gate (H X : Act.Idx → EReal) (W : Wts.Idx → EReal) (B : Bia.Idx → EReal) (r : Fin 8192) (n : Fin 4096) : EReal :=
  Ideal.logistic ((∑ k : Fin 1024, H (ix2 r k) * W (ix2 (recRow k) n)) + (∑ k : Fin 1024, X (ix2 r k) * W (ix2 (inpRow k) n))
    + B (ix1 n))

/-- The new cell state: forget gate times old cell, plus candidate, minus input gate. -/
def newCell (H X C : Act.Idx → EReal) (W : Wts.Idx → EReal) (B : Bia.Idx → EReal) : Act.Idx → EReal := fun i =>
  gate H X W B (i 0) (colF (i 1)) * C i + gate H X W B (i 0) (colZ (i 1)) - gate H X W B (i 0) (colI (i 1))

/-- The new hidden state: the logistic of the new cell state minus the output gate. -/
def newHidden (H X C : Act.Idx → EReal) (W : Wts.Idx → EReal) (B : Bia.Idx → EReal) : Act.Idx → EReal := fun i =>
  Ideal.logistic (newCell H X C W B i) - gate H X W B (i 0) (colO (i 1))

/-- The gate activations of ONE block of 256 batch rows, from that block of the hidden state (`h`) and of the input
    (`x`), the two halves of the weight matrix (`wh` the recurrent rows, `wx` the input rows) and the bias as a
    1 × 4096 row (`b`): row `p` of the block, gate column `n`. -/
def blockGate (h x : (⟨2, ![256, 1024]⟩ : Shape).Idx → EReal) (wh wx : (⟨2, ![1024, 4096]⟩ : Shape).Idx → EReal)
    (b : (⟨2, ![1, 4096]⟩ : Shape).Idx → EReal) (p : Fin 256) (n : Fin 4096) : EReal :=
  Ideal.logistic ((∑ k : Fin 1024, h (ix2 p k) * wh (ix2 k n)) + (∑ k : Fin 1024, x (ix2 p k) * wx (ix2 k n))
    + b (ix2 (0 : Fin 1) n))

/-- Batch row `p` of the block of 256 rows numbered `t` (of 32). -/
def blockRow (t : Fin 32) (p : Fin 256) : Fin 8192 := ⟨t.val * 256 + p.val, by have := t.isLt; have := p.isLt; omega⟩

/-- A block's gate activations are the whole arrays' gate activations at the block's rows, when the block's operands
    are those rows of the hidden state and of the input, the two halves of the weight matrix and the bias. -/
theorem blockGate_eq (H X : Act.Idx → EReal) (W : Wts.Idx → EReal) (B : Bia.Idx → EReal)
    (h x : (⟨2, ![256, 1024]⟩ : Shape).Idx → EReal) (wh wx : (⟨2, ![1024, 4096]⟩ : Shape).Idx → EReal)
    (b : (⟨2, ![1, 4096]⟩ : Shape).Idx → EReal) (t : Fin 32)
    (hh : ∀ p k, h (ix2 p k) = H (ix2 (blockRow t p) k)) (hx : ∀ p k, x (ix2 p k) = X (ix2 (blockRow t p) k))
    (hwh : ∀ k n, wh (ix2 k n) = W (ix2 (recRow k) n)) (hwx : ∀ k n, wx (ix2 k n) = W (ix2 (inpRow k) n))
    (hb : ∀ n, b (ix2 (0 : Fin 1) n) = B (ix1 n)) (p : Fin 256) (n : Fin 4096) :
    blockGate h x wh wx b p n = gate H X W B (blockRow t p) n := by
  unfold blockGate gate
  simp only [hh, hx, hwh, hwx, hb]

/-- The single-precision word `0x3F800000` denotes the real number one. -/
theorem one_word : Ideal.ofBits .f32 0x3F800000#32 = 1 := by
  simp [Ideal.ofBits, Ideal.ieee, -EReal.coe_mul]; norm_num

/-- The logistic function spelt out with that word for its two ones, `1 / (1 + e^(−t))`, is the logistic function. -/
theorem logistic_spelt (t : EReal) :
    Ideal.div (Ideal.ofBits .f32 0x3F800000#32) (Ideal.ofBits .f32 0x3F800000#32 + Ideal.exp (-t)) = Ideal.logistic t := by
  rw [one_word]; rfl

/-- A sum over all 2048 weight rows is the sum over the recurrent rows plus the sum over the input rows. -/
theorem sum_rows_split {M : Type} [AddCommMonoid M] (f : Fin 2048 → M) :
    ∑ k : Fin 2048, f k = ∑ k : Fin 1024, f (recRow k) + ∑ k : Fin 1024, f (inpRow k) :=
  Fin.sum_univ_add (a := 1024) (b := 1024) f

end Cert.SubLstm

end
-- ==== Proof.KernelGate.lean ====
/-
  The gate activations the kernel body computes from its operands, read at one element: for a block of 256 batch rows
  the body multiplies the block of the hidden state by the recurrent half of the weights and the block of the input
  by the input half (each product accumulated from zero, so each is a plain sum over the 1024 contracted positions),
  adds the two products, adds the bias row broadcast down the 256 rows, and applies the logistic function:
  `blockGate` of `Spec`. The narrowing of the two activation blocks to a shorter float format before the products is
  the identity on extended reals.
-/
import proofs.«142288_j64072322122354_2_alg».proof.Proof.Gen.KernelIdeal.Skeleton
import proofs.«142288_j64072322122354_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.CellValue

open Cert.KernelIdeal Cert.KernelIdeal.Gen
open Idealize.ShloMosaic Idealize.ShloMosaic.ValueIdx Cert.SubLstm

/-- The left operand's row is the output's row, -/
theorem lhs_row (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
/-- its column the contracted position; -/
theorem lhs_col (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
/-- the right operand's row is the contracted position, -/
theorem rhs_row (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
/-- its column the output's column. -/
theorem rhs_col (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- One of the body's two matrix products, at row `p` and gate column `n`: the sum over the 1024 contracted
    positions of the activation times the weight. -/
theorem product_at (a : FVec Ideal S256x1024 .f32) (b : FVec Ideal S1024x4096 .bf16) (p : Fin 256) (n : Fin 4096) :
    matmul dot_S256x1024_S1024x4096_S256x4096_1_0_0_1_n_n none (truncf .bf16 a bitsLt_bf16_f32)
        (shapeCast S1024x4096 b shapeCasts_S1024x4096_S1024x4096) (constant (F := Ideal) S256x4096 .f32 0x00000000#32) (ix2 p n)
      = ∑ k : Fin 1024, a (ix2 p k) * b (ix2 k n) := by
  rw [shapeCast_self]
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p n) ((contrEquiv1 dot_S256x1024_S1024x4096_S256x4096_1_0_0_1_n_n 1024 rfl rfl).symm k) = ix2 p k := funext fun a => Fin.ext (by
    match a with
    | ⟨0, _⟩ => exact lhs_row _ _
    | ⟨1, _⟩ => exact (lhs_col _ _).trans hk)
  have er : dot_S256x1024_S1024x4096_S256x4096_1_0_0_1_n_n.rhsIdx (ix2 p n) ((contrEquiv1 dot_S256x1024_S1024x4096_S256x4096_1_0_0_1_n_n 1024 rfl rfl).symm k) = ix2 k n := funext fun a => Fin.ext (by
    match a with
    | ⟨0, _⟩ => exact (rhs_row _ _).trans hk
    | ⟨1, _⟩ => exact rhs_col _ _)
  rw [el, er]
  rfl

/-- The bias row broadcast down the block's rows reads, at row `p` and gate column `n`, the bias of column `n`. -/
theorem bias_at (b : Vec Ideal S1x4096 .f32) (p : Fin 256) (n : Fin 4096) :
    broadcastTo S256x4096 (shapeCast S1x4096 b shapeCasts_S1x4096_S1x4096) broadcasts_S1x4096_S256x4096 (ix2 p n)
      = b (ix2 (0 : Fin 1) n) := by
  rw [shapeCast_self]
  exact broadcastTo_apply b broadcasts_S1x4096_S256x4096 (ix2 p n) (ix2 (0 : Fin 1) n) (fun a => match a with
    | ⟨0, _⟩ => by show 0 = if (1 : Nat) = 1 then 0 else _; rw [if_pos rfl]
    | ⟨1, _⟩ => by show n.val = if (4096 : Nat) = 1 then 0 else n.val; rw [if_neg (by decide)])

/-- THE BODY'S GATE ACTIVATIONS at row `p` of the block and gate column `n`. -/
theorem gates_at (v0 v2 : Vec Ideal S256x1024 .f32) (v4 v7 : Vec Ideal S1024x4096 .bf16) (v11 : Vec Ideal S1x4096 .f32)
    (p : Fin 256) (n : Fin 4096) :
    k0_pay1 v0 v2 v4 v7 v11 (ix2 p n) = blockGate v0 v2 v4 v7 v11 p n := by
  unfold k0_pay1 blockGate
  show Ideal.logistic ((matmul dot_S256x1024_S1024x4096_S256x4096_1_0_0_1_n_n none (truncf .bf16 v0 bitsLt_bf16_f32)
        (shapeCast S1024x4096 v4 shapeCasts_S1024x4096_S1024x4096) (constant (F := Ideal) S256x4096 .f32 0x00000000#32) (ix2 p n)
      + matmul dot_S256x1024_S1024x4096_S256x4096_1_0_0_1_n_n none (truncf .bf16 v2 bitsLt_bf16_f32)
        (shapeCast S1024x4096 v7 shapeCasts_S1024x4096_S1024x4096) (constant (F := Ideal) S256x4096 .f32 0x00000000#32) (ix2 p n))
      + broadcastTo S256x4096 (shapeCast S1x4096 v11 shapeCasts_S1x4096_S1x4096) broadcasts_S1x4096_S256x4096 (ix2 p n)) = _
  rw [product_at, product_at, bias_at]

end Cert.KernelIdeal.CellValue

end
-- ==== Proof.KernelBlock.lean ====
/-
  What one grid point leaves in its two output blocks, element by element, as a function of its six operand blocks: with
  `g = blockGate` of the point's hidden-state block, input block, the two weight halves and the bias row,

      cell block  [p, q] = g[p, 1024+q] · c[p, q] + g[p, 2048+q] − g[p, q],
      hidden block[p, q] = σ(cell block[p, q]) − g[p, 3072+q],

  `c` the point's block of the old cell state. The body cuts the 4096 gate columns into the four bands by slices at
  offsets 0, 1024, 2048, 3072; each band element is the gate activation at the shifted column.
-/
import proofs.«142288_j64072322122354_2_alg».proof.Proof.Gen.KernelIdeal.Value
import proofs.«142288_j64072322122354_2_alg».proof.Proof.KernelGate

noncomputable section

open scoped BigOperators

namespace Cert.KernelIdeal.CellValue

open Cert.KernelIdeal Cert.KernelIdeal.Gen Cert.KernelIdeal.Value
open Idealize.ShloMosaic Idealize.ShloMosaic.ValueIdx Cert.SubLstm

theorem zero_offsets : (![0, 0] : Fin 2 → Nat) = fun _ => 0 := funext fun a => by fin_cases a <;> rfl

/-- Where the cell block's element `(p, q)` reads the forget gate, -/
theorem cell_reads_f (p : Fin 256) (q : Fin 1024) : ix7_0 (ix2 p q) = ix2 p (colF q) :=
  funext fun a => Fin.ext (by match a with | ⟨0, _⟩ => rfl | ⟨1, _⟩ => show q.val + 1024 = 1024 + q.val; omega)
/-- the old cell state, -/
theorem cell_reads_c (p : Fin 256) (q : Fin 1024) : ix7_1 (ix2 p q) = ix2 p q :=
  funext fun a => Fin.ext (by match a with | ⟨0, _⟩ => rfl | ⟨1, _⟩ => rfl)
/-- the candidate, -/
theorem cell_reads_z (p : Fin 256) (q : Fin 1024) : ix7_2 (ix2 p q) = ix2 p (colZ q) :=
  funext fun a => Fin.ext (by match a with | ⟨0, _⟩ => rfl | ⟨1, _⟩ => show q.val + 2048 = 2048 + q.val; omega)
/-- and the input gate. -/
theorem cell_reads_i (p : Fin 256) (q : Fin 1024) : ix7_3 (ix2 p q) = ix2 p (colI q) :=
  funext fun a => Fin.ext (by match a with | ⟨0, _⟩ => rfl | ⟨1, _⟩ => rfl)

/-- THE CELL BLOCK a point leaves, at `(p, q)`. -/
theorem cell_block (x0 x1 x2 : Vec Ideal S256x1024 .f32) (x3 x4 : Vec Ideal S1024x4096 .bf16) (x5 : Vec Ideal S1x4096 .f32)
    (p : Fin 256) (q : Fin 1024) :
    out0_7 x0 x1 x2 x3 x4 x5 (ix2 p q)
      = blockGate x0 x1 x3 x4 x5 p (colF q) * x2 (ix2 p q) + blockGate x0 x1 x3 x4 x5 p (colZ q)
        - blockGate x0 x1 x3 x4 x5 p (colI q) := by
  unfold out0_7
  simp only [View.ld_unit_zero (S := S256x1024) zero_offsets, View.ld_unit_zero (S := S1024x4096) zero_offsets,
    View.ld_unit_zero (S := S1x4096) zero_offsets]
  rw [canon7_eq]
  show k0_pay1 x0 x1 x3 x4 x5 (ix7_0 (ix2 p q)) * x2 (ix7_1 (ix2 p q)) + k0_pay1 x0 x1 x3 x4 x5 (ix7_2 (ix2 p q))
      - k0_pay1 x0 x1 x3 x4 x5 (ix7_3 (ix2 p q)) = _
  rw [cell_reads_f, cell_reads_c, cell_reads_z, cell_reads_i, gates_at, gates_at, gates_at]

/-- Where the hidden block's element `(p, q)` reads the forget gate, -/
theorem hidden_reads_f (p : Fin 256) (q : Fin 1024) : ix6_0 (ix2 p q) = ix2 p (colF q) :=
  funext fun a => Fin.ext (by match a with | ⟨0, _⟩ => rfl | ⟨1, _⟩ => show q.val + 1024 = 1024 + q.val; omega)
/-- the old cell state, -/
theorem hidden_reads_c (p : Fin 256) (q : Fin 1024) : ix6_1 (ix2 p q) = ix2 p q :=
  funext fun a => Fin.ext (by match a with | ⟨0, _⟩ => rfl | ⟨1, _⟩ => rfl)
/-- the candidate, -/
theorem hidden_reads_z (p : Fin 256) (q : Fin 1024) : ix6_2 (ix2 p q) = ix2 p (colZ q) :=
  funext fun a => Fin.ext (by match a with | ⟨0, _⟩ => rfl | ⟨1, _⟩ => show q.val + 2048 = 2048 + q.val; omega)
/-- the input gate, -/
theorem hidden_reads_i (p : Fin 256) (q : Fin 1024) : ix6_3 (ix2 p q) = ix2 p (colI q) :=
  funext fun a => Fin.ext (by match a with | ⟨0, _⟩ => rfl | ⟨1, _⟩ => rfl)
/-- and the output gate. -/
theorem hidden_reads_o (p : Fin 256) (q : Fin 1024) : ix6_4 (ix2 p q) = ix2 p (colO q) :=
  funext fun a => Fin.ext (by match a with | ⟨0, _⟩ => rfl | ⟨1, _⟩ => show q.val + 3072 = 3072 + q.val; omega)

/-- THE HIDDEN BLOCK a point leaves, at `(p, q)`. -/
theorem hidden_block (x0 x1 x2 : Vec Ideal S256x1024 .f32) (x3 x4 : Vec Ideal S1024x4096 .bf16) (x5 : Vec Ideal S1x4096 .f32)
    (p : Fin 256) (q : Fin 1024) :
    out0_6 x0 x1 x2 x3 x4 x5 (ix2 p q)
      = Ideal.logistic (blockGate x0 x1 x3 x4 x5 p (colF q) * x2 (ix2 p q) + blockGate x0 x1 x3 x4 x5 p (colZ q)
          - blockGate x0 x1 x3 x4 x5 p (colI q))
        - blockGate x0 x1 x3 x4 x5 p (colO q) := by
  unfold out0_6
  simp only [View.ld_unit_zero (S := S256x1024) zero_offsets, View.ld_unit_zero (S := S1024x4096) zero_offsets,
    View.ld_unit_zero (S := S1x4096) zero_offsets]
  rw [canon6_eq]
  show Ideal.logistic (k0_pay1 x0 x1 x3 x4 x5 (ix6_0 (ix2 p q)) * x2 (ix6_1 (ix2 p q)) + k0_pay1 x0 x1 x3 x4 x5 (ix6_2 (ix2 p q))
      - k0_pay1 x0 x1 x3 x4 x5 (ix6_3 (ix2 p q))) - k0_pay1 x0 x1 x3 x4 x5 (ix6_4 (ix2 p q)) = _
  rw [hidden_reads_f, hidden_reads_c, hidden_reads_z, hidden_reads_i, hidden_reads_o, gates_at, gates_at, gates_at, gates_at]

/-- The cell block is the new cell state at the block's rows, and the hidden block the new hidden state, when the
    point's operands are those rows of the hidden state, the input and the cell state, the two halves of the weight
    matrix and the bias. -/
theorem blocks_eq (H X C : Act.Idx → EReal) (W : Wts.Idx → EReal) (B : Bia.Idx → EReal)
    (x0 x1 x2 : Vec Ideal S256x1024 .f32) (x3 x4 : Vec Ideal S1024x4096 .bf16) (x5 : Vec Ideal S1x4096 .f32) (t : Fin 32)
    (h0 : ∀ p k, x0 (ix2 p k) = H (ix2 (blockRow t p) k)) (h1 : ∀ p k, x1 (ix2 p k) = X (ix2 (blockRow t p) k))
    (h2 : ∀ p q, x2 (ix2 p q) = C (ix2 (blockRow t p) q))
    (h3 : ∀ k n, x3 (ix2 k n) = W (ix2 (recRow k) n)) (h4 : ∀ k n, x4 (ix2 k n) = W (ix2 (inpRow k) n))
    (h5 : ∀ n, x5 (ix2 (0 : Fin 1) n) = B (ix1 n)) (p : Fin 256) (q : Fin 1024) :
    out0_7 x0 x1 x2 x3 x4 x5 (ix2 p q) = newCell H X C W B (ix2 (blockRow t p) q)
    ∧ out0_6 x0 x1 x2 x3 x4 x5 (ix2 p q) = newHidden H X C W B (ix2 (blockRow t p) q) := by
  have hg : ∀ n, blockGate x0 x1 x3 x4 x5 p n = gate H X W B (blockRow t p) n :=
    fun n => blockGate_eq H X W B x0 x1 x3 x4 x5 t h0 h1 h3 h4 h5 p n
  constructor
  · rw [cell_block, hg, hg, hg, h2]; rfl
  · rw [hidden_block, hg, hg, hg, hg, h2]; rfl

end Cert.KernelIdeal.CellValue

end
-- ==== Proof.KernelOperands.lean ====
/-
  What the six operand blocks of a grid point are, as elements of the argument arrays. The grid has 32 points; point
  `t` takes rows `256·t … 256·t + 255` of the hidden state, of the input and of the old cell state, and every point
  takes the same whole weight halves and bias row. Before the grid runs, the recurrent half is cut out of the weight
  matrix as its rows 0 … 1023 and the input half as its rows 1024 … 2047 (each then narrowed to a shorter float
  format, the identity on extended reals), and the bias vector is recast as a 1 × 4096 row.
-/
import proofs.«142288_j64072322122354_2_alg».proof.Proof.Gen.KernelIdeal.Frame
import proofs.«142288_j64072322122354_2_alg».proof.Proof.Spec
import Idealize.ShloMosaic.Lib.Pipeline.Value
import Idealize.ShloMosaic.Lib.StableHlo.Run
import Idealize.ShloMosaic.Lib.ValueLayout

noncomputable section

open scoped BigOperators

namespace Cert.KernelIdeal.CellValue

open Cert.KernelIdeal Cert.KernelIdeal.Gen
open Idealize.ShloMosaic Idealize.ShloMosaic.TcCoe Idealize.SL.Sem Idealize.ShloMosaic.ValueIdx Cert.SubLstm

variable (m : (ℓ : Loc nD τ sig) → Buf (Elt Ideal) ℓ)

/-- The recurrent half as the grid finds it: rows 0 … 1023 of the weight matrix. -/
theorem rec_half (c : Dev nD) : (V m c main_v1 : S1024x4096.Idx → EReal)
    = (truncf (F := Ideal) .bf16 (extractStridedSlice S1024x4096 ![0, 0] (m ((c : Thread nD τ).loc main_arg3) : S2048x4096.Idx → EReal)
        slices_S2048x4096_S1024x4096_0_0) bitsLt_bf16_f32 : S1024x4096.Idx → EReal) := by
  dsimp only [Gen.V, Gen.hostOps0]
  after_results

/-- The input half as the grid finds it: rows 1024 … 2047 of the weight matrix. -/
theorem inp_half (c : Dev nD) : (V m c main_v3 : S1024x4096.Idx → EReal)
    = (truncf (F := Ideal) .bf16 (extractStridedSlice S1024x4096 ![1024, 0] (m ((c : Thread nD τ).loc main_arg3) : S2048x4096.Idx → EReal)
        slices_S2048x4096_S1024x4096_1024_0) bitsLt_bf16_f32 : S1024x4096.Idx → EReal) := by
  dsimp only [Gen.V, Gen.hostOps0]
  after_results

/-- The bias row as the grid finds it: the bias vector recast as 1 × 4096. -/
theorem bias_recast (c : Dev nD) : (V m c main_v4 : S1x4096.Idx → EReal)
    = (shapeCast S1x4096 (m ((c : Thread nD τ).loc main_arg4) : S4096.Idx → EReal) shapeCasts_S4096_S1x4096 : S1x4096.Idx → EReal) := by
  dsimp only [Gen.V, Gen.hostOps0]
  after_results
  rfl

/-- The block indices at grid point `t`: the three activation operands and the two results take block row `t`, the
    weight halves and the bias row their one block (decided over the 32 points). -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The grid point as a block number. -/
def blockOf (t : Fin cfg0.N) : Fin 32 := ⟨t.val, by have h := t.isLt; have hN : cfg0.N = 32 := N_0; omega⟩

/-- Point `t`'s hidden-state block is rows `256·t + p` of the hidden state. -/
theorem hidden_rows (c : Dev nD) (t : Fin cfg0.N) (p : Fin 256) (k : Fin 1024) :
    (iblk m c 0 t : Vec Ideal S256x1024 .f32) (ix2 p k)
      = (m ((c : Thread nD τ).loc main_arg1) : S8192x1024.Idx → EReal) (ix2 (blockRow (blockOf t) p) k) := by
  obtain ⟨e0, e1, -⟩ := block_indices t
  unfold iblk
  rw [View.read_apply]
  show V m c main_arg1 _ = _
  rw [V_main_arg1]
  congr 1
  funext a
  apply Fin.ext
  match a with
  | ⟨0, _⟩ => show win0_0.index t 0 * 256 + 1 * p.val = t.val * 256 + p.val; rw [e0]; omega
  | ⟨1, _⟩ => show win0_0.index t 1 * 1024 + 1 * k.val = k.val; rw [e1]; omega

/-- Point `t`'s input block is rows `256·t + p` of the input. -/
theorem input_rows (c : Dev nD) (t : Fin cfg0.N) (p : Fin 256) (k : Fin 1024) :
    (iblk m c 1 t : Vec Ideal S256x1024 .f32) (ix2 p k)
      = (m ((c : Thread nD τ).loc main_arg0) : S8192x1024.Idx → EReal) (ix2 (blockRow (blockOf t) p) k) := by
  obtain ⟨-, -, e0, e1, -⟩ := block_indices t
  unfold iblk
  rw [View.read_apply]
  show V m c main_arg0 _ = _
  rw [V_main_arg0]
  congr 1
  funext a
  apply Fin.ext
  match a with
  | ⟨0, _⟩ => show win0_1.index t 0 * 256 + 1 * p.val = t.val * 256 + p.val; rw [e0]; omega
  | ⟨1, _⟩ => show win0_1.index t 1 * 1024 + 1 * k.val = k.val; rw [e1]; omega

/-- Point `t`'s cell-state block is rows `256·t + p` of the old cell state. -/
theorem cell_rows (c : Dev nD) (t : Fin cfg0.N) (p : Fin 256) (q : Fin 1024) :
    (iblk m c 2 t : Vec Ideal S256x1024 .f32) (ix2 p q)
      = (m ((c : Thread nD τ).loc main_arg2) : S8192x1024.Idx → EReal) (ix2 (blockRow (blockOf t) p) q) := by
  obtain ⟨-, -, -, -, e0, e1, -⟩ := block_indices t
  unfold iblk
  rw [View.read_apply]
  show V m c main_arg2 _ = _
  rw [V_main_arg2]
  congr 1
  funext a
  apply Fin.ext
  match a with
  | ⟨0, _⟩ => show win0_2.index t 0 * 256 + 1 * p.val = t.val * 256 + p.val; rw [e0]; omega
  | ⟨1, _⟩ => show win0_2.index t 1 * 1024 + 1 * q.val = q.val; rw [e1]; omega

/-- Every point's recurrent-half operand is the recurrent rows of the weight matrix. -/
theorem rec_rows (c : Dev nD) (t : Fin cfg0.N) (k : Fin 1024) (n : Fin 4096) :
    (iblk m c 3 t : Vec Ideal S1024x4096 .bf16) (ix2 k n)
      = (m ((c : Thread nD τ).loc main_arg3) : S2048x4096.Idx → EReal) (ix2 (recRow k) n) := by
  obtain ⟨-, -, -, -, -, -, e0, e1, -⟩ := block_indices t
  unfold iblk
  rw [View.read_apply]
  show V m c main_v1 _ = _
  rw [rec_half]
  have he : ((cfg0.win 3).blk t).view.emb (ix2 k n) = (ix2 k n : S1024x4096.Idx) := funext fun a => Fin.ext (by
    match a with
    | ⟨0, _⟩ => show win0_3.index t 0 * 1024 + 1 * k.val = k.val; rw [e0]; omega
    | ⟨1, _⟩ => show win0_3.index t 1 * 4096 + 1 * n.val = n.val; rw [e1]; omega)
  rw [he]
  exact slice2_axis0_apply 0 _ slices_S2048x4096_S1024x4096_0_0 k n (recRow k) (by show k.val = 0 + k.val; omega)

/-- Every point's input-half operand is the input rows of the weight matrix. -/
theorem inp_rows (c : Dev nD) (t : Fin cfg0.N) (k : Fin 1024) (n : Fin 4096) :
    (iblk m c 4 t : Vec Ideal S1024x4096 .bf16) (ix2 k n)
      = (m ((c : Thread nD τ).loc main_arg3) : S2048x4096.Idx → EReal) (ix2 (inpRow k) n) := by
  obtain ⟨-, -, -, -, -, -, -, -, e0, e1, -⟩ := block_indices t
  unfold iblk
  rw [View.read_apply]
  show V m c main_v3 _ = _
  rw [inp_half]
  have he : ((cfg0.win 4).blk t).view.emb (ix2 k n) = (ix2 k n : S1024x4096.Idx) := funext fun a => Fin.ext (by
    match a with
    | ⟨0, _⟩ => show win0_4.index t 0 * 1024 + 1 * k.val = k.val; rw [e0]; omega
    | ⟨1, _⟩ => show win0_4.index t 1 * 4096 + 1 * n.val = n.val; rw [e1]; omega)
  rw [he]
  exact slice2_axis0_apply 1024 _ slices_S2048x4096_S1024x4096_1024_0 k n (inpRow k) (by show 1024 + k.val = 1024 + k.val; rfl)

/-- Every point's bias operand is the bias vector laid out as one row. -/
theorem bias_row (c : Dev nD) (t : Fin cfg0.N) (n : Fin 4096) :
    (iblk m c 5 t : Vec Ideal S1x4096 .f32) (ix2 (0 : Fin 1) n)
      = (m ((c : Thread nD τ).loc main_arg4) : S4096.Idx → EReal) (ix1 n) := by
  obtain ⟨-, -, -, -, -, -, -, -, -, -, e0, e1, -⟩ := block_indices t
  unfold iblk
  rw [View.read_apply]
  show V m c main_v4 _ = _
  rw [bias_recast]
  have he : ((cfg0.win 5).blk t).view.emb (ix2 (0 : Fin 1) n) = (ix2 (0 : Fin 1) n : S1x4096.Idx) := funext fun a => Fin.ext (by
    match a with
    | ⟨0, _⟩ => show win0_5.index t 0 * 1 + 1 * 0 = 0; rw [e0]
    | ⟨1, _⟩ => show win0_5.index t 1 * 4096 + 1 * n.val = n.val; rw [e1]; omega)
  rw [he]
  exact shapeCast_a_1a_apply _ shapeCasts_S4096_S1x4096 (0 : Fin 1) n

end Cert.KernelIdeal.CellValue

end
-- ==== Proof.KernelArray.lean ====
/-
  From blocks to arrays: after the grid has run, the kernel's two result arrays are `newHidden` and `newCell` of its
  arguments. Grid point `t` writes back, into rows `256·t … 256·t + 255` of each result, the block it computed, and that
  block is the restriction of the whole-array function to those rows (`KernelBlock` for what the body computes from its
  operands, `KernelOperands` for what the operands are). The 32 row blocks cover all 8192 rows — row `r` lies in the
  block of point `r / 256` — so each result array is the whole-array function everywhere.
-/
import proofs.«142288_j64072322122354_2_alg».proof.Proof.Gen.KernelIdeal.Value
import proofs.«142288_j64072322122354_2_alg».proof.Proof.KernelBlock
import proofs.«142288_j64072322122354_2_alg».proof.Proof.KernelOperands

noncomputable section

open scoped BigOperators

namespace Cert.KernelIdeal.CellValue

open Cert.KernelIdeal Cert.KernelIdeal.Gen Cert.KernelIdeal.Value
open Idealize.ShloMosaic Idealize.ShloMosaic.TcCoe Idealize.SL.Sem Idealize.ShloMosaic.ValueIdx Cert.SubLstm
open Idealize.ShloMosaic.Pipeline (Dat)

variable (m : (ℓ : Loc nD τ sig) → Buf (Elt Ideal) ℓ) (ρ : Dev nD → PrngReg)

/-- The new cell state of the kernel's argument arrays (the hidden state is its second argument, the input its first). -/
abbrev cellOf (c : Dev nD) : S8192x1024.Idx → EReal :=
  newCell (m ((c : Thread nD τ).loc main_arg1)) (m ((c : Thread nD τ).loc main_arg0)) (m ((c : Thread nD τ).loc main_arg2))
    (m ((c : Thread nD τ).loc main_arg3)) (m ((c : Thread nD τ).loc main_arg4))

/-- The new hidden state of the kernel's argument arrays. -/
abbrev hiddenOf (c : Dev nD) : S8192x1024.Idx → EReal :=
  newHidden (m ((c : Thread nD τ).loc main_arg1)) (m ((c : Thread nD τ).loc main_arg0)) (m ((c : Thread nD τ).loc main_arg2))
    (m ((c : Thread nD τ).loc main_arg3)) (m ((c : Thread nD τ).loc main_arg4))

/-- What point `t` computes, at `(p, q)` of its blocks: the two whole-array functions at row `256·t + p`. -/
theorem point_blocks (c : Dev nD) (t : Fin cfg0.N) (p : Fin 256) (q : Fin 1024) :
    out0_7 (iblk m c 0 t) (iblk m c 1 t) (iblk m c 2 t) (iblk m c 3 t) (iblk m c 4 t) (iblk m c 5 t) (ix2 p q)
        = cellOf m c (ix2 (blockRow (blockOf t) p) q)
    ∧ out0_6 (iblk m c 0 t) (iblk m c 1 t) (iblk m c 2 t) (iblk m c 3 t) (iblk m c 4 t) (iblk m c 5 t) (ix2 p q)
        = hiddenOf m c (ix2 (blockRow (blockOf t) p) q) :=
  blocks_eq (m ((c : Thread nD τ).loc main_arg1)) (m ((c : Thread nD τ).loc main_arg0)) (m ((c : Thread nD τ).loc main_arg2))
    (m ((c : Thread nD τ).loc main_arg3)) (m ((c : Thread nD τ).loc main_arg4))
    (iblk m c 0 t) (iblk m c 1 t) (iblk m c 2 t) (iblk m c 3 t) (iblk m c 4 t) (iblk m c 5 t) (blockOf t)
    (hidden_rows m c t) (input_rows m c t) (cell_rows m c t) (rec_rows m c t) (inp_rows m c t) (bias_row m c t) p q

/-- WHAT POINT `t` WRITES BACK to the cell result is block `t` of the new cell state. -/
theorem flushed_cell (c : Dev nD) (t : Fin cfg0.N) :
    (dats m 0 c).flushed 7 t = ((cfg0.win 7).blk t).view.read (Elt Ideal) (cellOf m c) := by
  rw [flushed7]
  funext j
  obtain ⟨p, q, rfl⟩ : ∃ (p : Fin 256) (q : Fin 1024), j = ix2 p q := ⟨j 0, j 1, eq_ix2 j⟩
  obtain ⟨-, -, -, -, -, -, -, -, -, -, -, -, -, -, e0, e1⟩ := block_indices t
  have hx : (cfg0.win 7).xinj (grid0.coords t) (ix2 p q) = (ix2 p q : S256x1024.Idx) :=
    funext fun a => match a with | ⟨0, _⟩ => rfl | ⟨1, _⟩ => rfl
  show out0_7 (iblk m c 0 t) (iblk m c 1 t) (iblk m c 2 t) (iblk m c 3 t) (iblk m c 4 t) (iblk m c 5 t)
      ((cfg0.win 7).xinj (grid0.coords t) (ix2 p q)) = cellOf m c (((cfg0.win 7).blk t).view.emb (ix2 p q))
  rw [hx]
  refine (point_blocks m c t p q).1.trans ?_
  refine congrArg (cellOf m c) ?_
  funext a
  apply Fin.ext
  match a with
  | ⟨0, _⟩ => show t.val * 256 + p.val = win0_7.index t 0 * 256 + 1 * p.val; rw [e0]; omega
  | ⟨1, _⟩ => show q.val = win0_7.index t 1 * 1024 + 1 * q.val; rw [e1]; omega

/-- WHAT POINT `t` WRITES BACK to the hidden result is block `t` of the new hidden state. -/
theorem flushed_hidden (c : Dev nD) (t : Fin cfg0.N) :
    (dats m 0 c).flushed 6 t = ((cfg0.win 6).blk t).view.read (Elt Ideal) (hiddenOf m c) := by
  rw [flushed6]
  funext j
  obtain ⟨p, q, rfl⟩ : ∃ (p : Fin 256) (q : Fin 1024), j = ix2 p q := ⟨j 0, j 1, eq_ix2 j⟩
  obtain ⟨-, -, -, -, -, -, -, -, -, -, -, -, e0, e1, -⟩ := block_indices t
  have hx : (cfg0.win 6).xinj (grid0.coords t) (ix2 p q) = (ix2 p q : S256x1024.Idx) :=
    funext fun a => match a with | ⟨0, _⟩ => rfl | ⟨1, _⟩ => rfl
  show out0_6 (iblk m c 0 t) (iblk m c 1 t) (iblk m c 2 t) (iblk m c 3 t) (iblk m c 4 t) (iblk m c 5 t)
      ((cfg0.win 6).xinj (grid0.coords t) (ix2 p q)) = hiddenOf m c (((cfg0.win 6).blk t).view.emb (ix2 p q))
  rw [hx]
  refine (point_blocks m c t p q).2.trans ?_
  refine congrArg (hiddenOf m c) ?_
  funext a
  apply Fin.ext
  match a with
  | ⟨0, _⟩ => show t.val * 256 + p.val = win0_6.index t 0 * 256 + 1 * p.val; rw [e0]; omega
  | ⟨1, _⟩ => show q.val = win0_6.index t 1 * 1024 + 1 * q.val; rw [e1]; omega

/-- An index of the cell result is in point `t`'s block iff each coordinate is in the block's range on its axis. -/
theorem mem_cell_block (t : Fin cfg0.N) (i : S8192x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v5_1).slice (win0_7.rect t)).set ↔ _
  rw [View.set_slice_whole, Rect.mem_set_unit]
  exact Iff.rfl

/-- The same for the hidden result. -/
theorem mem_hidden_block (t : Fin cfg0.N) (i : S8192x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v5_0).slice (win0_6.rect t)).set ↔ _
  rw [View.set_slice_whole, Rect.mem_set_unit]
  exact Iff.rfl

/-- Every row of the cell result is in the block of the point numbered by the row divided by 256. -/
theorem cell_cover (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, -, -, -, -, -, -, -, -, e0, e1⟩ := block_indices t
  refine ⟨t, flush0_7 t, ?_⟩
  rw [mem_cell_block]
  intro a
  match a with
  | ⟨0, _⟩ => show win0_7.index t 0 * 256 ≤ (i 0).val ∧ (i 0).val < win0_7.index t 0 * 256 + 256; rw [e0, ht]; omega
  | ⟨1, _⟩ => show win0_7.index t 1 * 1024 ≤ (i 1).val ∧ (i 1).val < win0_7.index t 1 * 1024 + 1024; rw [e1]; omega

/-- The same for the hidden result. -/
theorem hidden_cover (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, -, -, -, -, -, -, e0, e1, -⟩ := block_indices t
  refine ⟨t, flush0_6 t, ?_⟩
  rw [mem_hidden_block]
  intro a
  match a with
  | ⟨0, _⟩ => show win0_6.index t 0 * 256 ≤ (i 0).val ∧ (i 0).val < win0_6.index t 0 * 256 + 256; rw [e0, ht]; omega
  | ⟨1, _⟩ => show win0_6.index t 1 * 1024 ≤ (i 1).val ∧ (i 1).val < win0_6.index t 1 * 1024 + 1024; rw [e1]; omega

/-- THE CELL RESULT after the grid: the new cell state. -/
theorem final_cell (c : Dev nD) : (dats m 0 c).arrAt 7 cfg0.N = cellOf m c :=
  (dats m 0 c).arrAt_eq_of_cover 7 (cellOf m c) (fun t _ => flushed_cell m c t) cell_cover

/-- THE HIDDEN RESULT after the grid: the new hidden state. -/
theorem final_hidden (c : Dev nD) : (dats m 0 c).arrAt 6 cfg0.N = hiddenOf m c :=
  (dats m 0 c).arrAt_eq_of_cover 6 (hiddenOf m c) (fun t _ => flushed_hidden m c t) hidden_cover

/-- THE KERNEL'S RUN, READ: every weakly fair execution terminates with the first result at the new hidden state and
    the second at the new cell state of the arguments, the arguments unchanged. -/
theorem run : θ_run defs (onTc (τ := τ) (main (F := Ideal))) ⟨m, fun _ => 0, ρ⟩ fun r => ∀ c : Dev nD,
      r.2.mem ((c : Thread nD τ).loc main_v5_0) = hiddenOf m c
      ∧ r.2.mem ((c : Thread nD τ).loc main_v5_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_hidden m c), (h c).2.1.trans (final_cell m c), (h c).2.2⟩)
    (run_blocks m ρ)

end Cert.KernelIdeal.CellValue

end
-- ==== Proof.RefCell.lean ====
/-
  The reference computes the cell of `Spec`: its two results, read one element at a time, are `newHidden` and `newCell`
  of its arguments (the hidden state is its second argument, the input its first).

  The reference joins the hidden state and the input side by side into one 8192 × 2048 array and contracts it with
  the whole weight matrix in ONE sum over 2048 rows; splitting that sum at row 1024 (`sum_rows_split`) gives the two
  sums of `gate`: on the first 1024 columns the joined array is the hidden state, on the last 1024 the input. It
  writes the logistic function out as `1 / (1 + e^(−t))`, which is the logistic function (`logistic_spelt`). The four
  gate bands are slices of the 4096 gate columns at offsets 0, 1024, 2048, 3072.
-/
import proofs.«142288_j64072322122354_2_alg».proof.Proof.Gen.ReferenceIdeal.Read
import proofs.«142288_j64072322122354_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.SubLstm

/-- On its first 1024 columns the joined array is the hidden state. -/
theorem joined_rec (x0 x1 : FVec Ideal S8192x1024 .f32) (r : Fin 8192) (n : Fin 4096) (k : Fin 1024) :
    val_main_v0 (F := Ideal) x0 x1 (lidx_main_v1 (ix2 r n) (recRow k)) = x1 (ix2 r k) := by
  unfold val_main_v0
  exact concatenate_pair_apply_left (1 : Fin S8192x2048.rank) x1 x0 concatenates_S8192x1024_S8192x1024_S8192x2048_d1
    (lidx_main_v1 (ix2 r n) (recRow k)) rfl (ix2 r k) (fun b => match b with | ⟨0, _⟩ => rfl | ⟨1, _⟩ => rfl)

/-- On its last 1024 columns the joined array is the input. -/
theorem joined_inp (x0 x1 : FVec Ideal S8192x1024 .f32) (r : Fin 8192) (n : Fin 4096) (k : Fin 1024) :
    val_main_v0 (F := Ideal) x0 x1 (lidx_main_v1 (ix2 r n) (inpRow k)) = x0 (ix2 r k) := by
  unfold val_main_v0
  exact concatenate_pair_apply_right (1 : Fin S8192x2048.rank) x1 x0 concatenates_S8192x1024_S8192x1024_S8192x2048_d1
    (lidx_main_v1 (ix2 r n) (inpRow k)) rfl rfl (ix2 r k)
    (fun b hb => match b, hb with | ⟨0, _⟩, _ => rfl | ⟨1, _⟩, hb => absurd rfl hb)
    (by show k.val + 1024 = 1024 + k.val; omega)

/-- The weight the contraction meets at row `k` and gate column `n`. -/
theorem weight_at (r : Fin 8192) (n : Fin 4096) (k : Fin 2048) : ridx_main_v1 (ix2 r n) k = ix2 k n :=
  funext fun a => match a with | ⟨0, _⟩ => rfl | ⟨1, _⟩ => rfl

/-- The bias entry a gate column reads after the two broadcasts. -/
theorem bias_at (r : Fin 8192) (n : Fin 4096) : idx_main_v2 (idx_main_v3 (ix2 r n)) = ix1 n :=
  funext fun a => match a with | ⟨0, _⟩ => rfl

/-- The reference's gate activations are `gate`. -/
theorem gates_eq (x0 x1 : FVec Ideal S8192x1024 .f32) (x3 : FVec Ideal S2048x4096 .f32) (x4 : FVec Ideal S4096 .f32)
    (r : Fin 8192) (n : Fin 4096) :
    val_main_v10 (F := Ideal) x0 x1 x3 x4 (ix2 r n) = gate x1 x0 x3 x4 r n := by
  rw [val_main_v10_apply, val_main_v9_apply, val_main_cst_0_apply, val_main_v8_apply, val_main_v7_apply, val_main_cst_apply,
    val_main_v6_apply, val_main_v5_apply, val_main_v4_apply, val_main_v1_apply, val_main_v3_apply, val_main_v2_apply,
    sum_rows_split]
  simp only [joined_rec, joined_inp, weight_at, bias_at]
  exact logistic_spelt _

/-- The forget-gate band is the slice of the gate columns at offset 1024, -/
theorem band_f (r : Fin 8192) (j : Fin 1024) : idx_main_v12 (ix2 r j) = ix2 r (colF j) :=
  funext fun a => match a with | ⟨0, _⟩ => rfl | ⟨1, _⟩ => rfl
/-- the candidate band the slice at offset 2048, -/
theorem band_z (r : Fin 8192) (j : Fin 1024) : idx_main_v13 (ix2 r j) = ix2 r (colZ j) :=
  funext fun a => match a with | ⟨0, _⟩ => rfl | ⟨1, _⟩ => rfl
/-- the input-gate band the slice at offset 0, -/
theorem band_i (r : Fin 8192) (j : Fin 1024) : idx_main_v11 (ix2 r j) = ix2 r (colI j) :=
  funext fun a => match a with | ⟨0, _⟩ => rfl | ⟨1, _⟩ => rfl
/-- and the output-gate band the slice at offset 3072. -/
theorem band_o (r : Fin 8192) (j : Fin 1024) : idx_main_v14 (ix2 r j) = ix2 r (colO j) :=
  funext fun a => match a with | ⟨0, _⟩ => rfl | ⟨1, _⟩ => rfl

/-- The reference's second result is the new cell state. -/
theorem cell_eq (x0 x1 x2 : FVec Ideal S8192x1024 .f32) (x3 : FVec Ideal S2048x4096 .f32) (x4 : FVec Ideal S4096 .f32) :
    val_main_v17 (F := Ideal) x0 x1 x2 x3 x4 = newCell x1 x0 x2 x3 x4 := by
  funext i
  obtain ⟨r, j, rfl⟩ : ∃ (r : Fin 8192) (j : Fin 1024), i = ix2 r j := ⟨i 0, i 1, eq_ix2 i⟩
  rw [val_main_v17_apply, val_main_v16_apply, val_main_v15_apply, val_main_v12_apply, val_main_v13_apply, val_main_v11_apply,
    band_f, band_z, band_i, gates_eq, gates_eq, gates_eq]
  rfl

/-- The reference's first result is the new hidden state. -/
theorem hidden_eq (x0 x1 x2 : FVec Ideal S8192x1024 .f32) (x3 : FVec Ideal S2048x4096 .f32) (x4 : FVec Ideal S4096 .f32) :
    val_main_v24 (F := Ideal) x0 x1 x2 x3 x4 = newHidden x1 x0 x2 x3 x4 := by
  funext i
  obtain ⟨r, j, rfl⟩ : ∃ (r : Fin 8192) (j : Fin 1024), i = ix2 r j := ⟨i 0, i 1, eq_ix2 i⟩
  rw [val_main_v24_apply, val_main_v23_apply, val_main_v22_apply, val_main_cst_2_apply, val_main_v21_apply, val_main_v20_apply,
    val_main_cst_1_apply, val_main_v19_apply, val_main_v18_apply, val_main_v14_apply, band_o, gates_eq, cell_eq]
  exact congrArg (fun t => t - gate x1 x0 x3 x4 r (colO j)) (logistic_spelt _)

end Cert.ReferenceIdeal.RefValue

end
-- ==== Proof.lean ====
/-
  The certificate of a fused subtractive-gate LSTM cell against its array-level reference, on the extended reals.

  Both programs compute, from the previous hidden state `H`, the input `X`, the previous cell state `C`, a weight
  matrix `W` (1024 recurrent rows, then 1024 input rows, by 4096 gate columns) and a bias `B`,

      gate[r,n]   = σ( Σ_k H[r,k]·W[k,n] + Σ_k X[r,k]·W[1024+k,n] + B[n] ),          σ t = 1 / (1 + e^(−t)),
      cell[r,j]   = gate[r,1024+j]·C[r,j] + gate[r,2048+j] − gate[r,j],
      hidden[r,j] = σ(cell[r,j]) − gate[r,3072+j]

  (`Proof/Spec.lean`). The kernel works on 32 blocks of 256 batch rows: it multiplies the block of `H` by the recurrent
  half of `W` and the block of `X` by the input half, adds the two products and the bias, applies the logistic function
  as one operation, and combines the four bands of gate columns (`Proof/KernelGate.lean`, `KernelBlock.lean`,
  `KernelOperands.lean`, `KernelArray.lean`). The reference joins `H` and `X` side by side and takes ONE product with
  the whole of `W`, and spells the logistic function as `1 / (1 + e^(−t))` (`Proof/RefCell.lean`). The two agree
  because a sum over the 2048 rows of `W` is the sum over its first 1024 rows plus the sum over its last 1024 — a
  regrouping of a finite sum, true on the extended reals whatever the summands, so the finiteness of the inputs is
  never used — and because changing the float format of an operand is the identity on extended reals.

  The idealized kernel is the kernel's own text (no rewrite was applied), so that conjunct is trivial; the three
  frame conjuncts are the programs' runs with the results forgotten.
-/
import proofs.«142288_j64072322122354_2_alg».proof.Defs
import proofs.«142288_j64072322122354_2_alg».proof.Proof.Gen.Kernel
import proofs.«142288_j64072322122354_2_alg».proof.Proof.Gen.Kernel.Skeleton
import proofs.«142288_j64072322122354_2_alg».proof.Proof.Gen.Kernel.Launch
import proofs.«142288_j64072322122354_2_alg».proof.Proof.Gen.Kernel.Points
import proofs.«142288_j64072322122354_2_alg».proof.Proof.Gen.Kernel.Frame
import proofs.«142288_j64072322122354_2_alg».proof.Proof.Gen.KernelIdeal
import proofs.«142288_j64072322122354_2_alg».proof.Proof.Gen.KernelIdeal.Skeleton
import proofs.«142288_j64072322122354_2_alg».proof.Proof.Gen.KernelIdeal.Launch
import proofs.«142288_j64072322122354_2_alg».proof.Proof.Gen.KernelIdeal.Points
import proofs.«142288_j64072322122354_2_alg».proof.Proof.Gen.KernelIdeal.Frame
import proofs.«142288_j64072322122354_2_alg».proof.Proof.Gen.ReferenceIdeal
import proofs.«142288_j64072322122354_2_alg».proof.Proof.Gen.Pre_finite_inputs
import proofs.«142288_j64072322122354_2_alg».proof.Proof.Gen.KernelIdeal.Value
import proofs.«142288_j64072322122354_2_alg».proof.Proof.Gen.ReferenceIdeal.Run
import proofs.«142288_j64072322122354_2_alg».proof.Proof.Gen.ReferenceIdeal.Read
import proofs.«142288_j64072322122354_2_alg».proof.Proof.KernelArray
import proofs.«142288_j64072322122354_2_alg».proof.Proof.RefCell
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten for the extended reals. -/
theorem preserves : Cert.preserves_Kernel_KernelIdeal := trivial

/-- From arguments that agree, the kernel and the reference both end with the new hidden state as first result and
    the new cell state as second: the kernel by its blocks (`CellValue.run`), the reference by its one sum over
    all weight rows split at row 1024 (`RefValue.hidden_eq`, `RefValue.cell_eq`). -/
theorem algebraic : Cert.algebraic_KernelIdeal_ReferenceIdeal := by
  intro m ρ m' ρ' _ hagree
  refine ⟨fun c => Cert.KernelIdeal.CellValue.hiddenOf m c, fun c => Cert.KernelIdeal.CellValue.cellOf m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v24_eq, Cert.ReferenceIdeal.RefValue.hidden_eq,
      (hagree c).1, (hagree c).2.1, (hagree c).2.2.1, (hagree c).2.2.2.1, (hagree c).2.2.2.2]
  · rw [Cert.ReferenceIdeal.Read.val_main_v17_eq, Cert.ReferenceIdeal.RefValue.cell_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
